-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x32x512 : Shape := ⟨3, ![8192, 32, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x32x512 : S_.BroadcastsInDim S8192x32x512 (![] : Fin 0 → Fin S8192x32x512.rank)
  reducesTo_S8192x32x512_S_d0_1_2 : S8192x32x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S8192x512 .f32) (main_arg1 : FVec F S8192x32x512 .f32) (main_arg2 : FVec F S512x512 .f32) (main_arg3 : FVec F S512 .f32) (main_arg4 : FVec F S512x512 .f32) (main_arg5 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x32x512 .f32 := Host.absf main_arg1
  let main_cst_0 : FVec F S_ .f32 := constant S_ .f32 0x7F800000#32
  let main_v5 : FVec F S8192x32x512 .f32 := broadcastInDim S8192x32x512 ![] bcast_S_S8192x32x512 main_cst_0
  let main_v6 : IVec S8192x32x512 1 := cmpf .olt main_v4 main_v5
  let main_c_1 : IVec S_ 1 := constantI S_ 1 1#1
  let main_v7 : IVec S_ 1 := (fun x v => Host.reduce IntOp.andi x v reducesTo_S8192x32x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8192x512 : Shape := ⟨2, ![8192, 512]⟩
abbrev S8192x32x512 : Shape := ⟨3, ![8192, 32, 512]⟩
abbrev S512x512 : Shape := ⟨2, ![512, 512]⟩
abbrev S512 : Shape := ⟨1, ![512]⟩
abbrev S1x512 : Shape := ⟨2, ![1, 512]⟩
abbrev S128x32x512 : Shape := ⟨3, ![128, 32, 512]⟩
abbrev S128x512 : Shape := ⟨2, ![128, 512]⟩
abbrev S4096x512 : Shape := ⟨2, ![4096, 512]⟩

abbrev nBuf : Space → Nat
  | .hbm => 11
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .bf16⟩
  | .hbm, ⟨7, _⟩ => ⟨S512x512, .bf16⟩
  | .hbm, ⟨8, _⟩ => ⟨S512x512, .bf16⟩
  | .hbm, ⟨9, _⟩ => ⟨S1x512, .f32⟩
  | .hbm, ⟨10, _⟩ => ⟨S8192x512, .f32⟩
  | .local _ .vmem, ⟨0, _⟩ => ⟨S128x32x512, .f32⟩
  | .local _ .vmem, ⟨1, _⟩ => ⟨S128x32x512, .f32⟩
  | .local _ .vmem, ⟨2, _⟩ => ⟨S128x512, .f32⟩
  | .local _ .vmem, ⟨3, _⟩ => ⟨S128x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S128x512, .f32⟩
  | .local _ .vmem, ⟨9, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S512_S1x512 : S512.ShapeCasts S1x512
  inb_S128x32x512_S128x32x512_0_0_0 : ∀ a, (![0, 0, 0] : Fin 3 → Nat) a + S128x32x512.size a ≤ S128x32x512.size a
  h_S128x32x512 : 0 < S128x32x512.numel
  shapeCasts_S128x32x512_S4096x512 : S128x32x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S4096x512_S128x32x512 : S4096x512.ShapeCasts S128x32x512
  reduces_S128x32x512_S128x512 : S128x32x512.Reduces [1] S128x512
  inb_S128x512_S128x512_0_0 : ∀ a, (![0, 0] : Fin 2 → Nat) a + S128x512.size a ≤ S128x512.size a
  h_S128x512 : 0 < S128x512.numel
  dot_S4096x512_S512x512_S4096x512_1_0_0_1_n_n_wf : DotDims.WF S4096x512 S512x512 S4096x512 [1] [0] [0] [1] [] []
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x512.size a ≤ S8192x32x512.size a
  hwx0_0 : ∀ i : grid0.Coords, EltTy.bits .f32 = 32 ∨ (Rect.block (s := S8192x32x512) S128x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S8192x512.size a
  hwx0_1 : ∀ i : grid0.Coords, EltTy.bits .f32 = 32 ∨ (Rect.block (s := S8192x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S8192x512.size a
  hwx0_6 : ∀ i : grid0.Coords, EltTy.bits .f32 = 32 ∨ (Rect.block (s := S8192x512) S128x512.size (cc0_transform_6 i) (hinb0_6 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg1) S128x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x32x512 : Shape := ⟨3, ![8192, 32, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S8192x32x512, .f32⟩
  | .hbm, ⟨7, _⟩ => ⟨S1x1x512, .f32⟩
  | .hbm, ⟨8, _⟩ => ⟨S8192x32x512, .f32⟩
  | .hbm, ⟨9, _⟩ => ⟨S8192x32x512, .f32⟩
  | .hbm, ⟨10, _⟩ => ⟨S_, .f32⟩
  | .hbm, ⟨11, _⟩ => ⟨S8192x32x512, .f32⟩
  | .hbm, ⟨12, _⟩ => ⟨S8192x32x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8192x32x512_0_1_2 : S1x1x512.BroadcastsInDim S8192x32x512 (![0, 1, 2] : Fin 3 → Fin S8192x32x512.rank)
  bcast_S_S8192x32x512 : S_.BroadcastsInDim S8192x32x512 (![] : Fin 0 → Fin S8192x32x512.rank)
  reducesTo_S8192x32x512_S8192x512_d1 : S8192x32x512.ReducesTo [1] S8192x512
  h_S_ : 0 < S_.numel
  bcast_S_S8192x512 : S_.BroadcastsInDim S8192x512 (![] : Fin 0 → Fin S8192x512.rank)
  dot_S8192x32x512_S512x512_S8192x32x512_2_0_01_1_n_n_wf : DotDims.WF S8192x32x512 S512x512 S8192x32x512 [2] [0] [0, 1] [1] [] []
  dot_S8192x512_S512x512_S8192x512_1_0_0_1_n_n_wf : DotDims.WF S8192x512 S512x512 S8192x512 [1] [0] [0] [1] [] []

variable [Facts₀]

def dot_S8192x32x512_S512x512_S8192x32x512_2_0_01_1_n_n : DotDims S8192x32x512 S512x512 S8192x32x512 where
  lhsContracting := [2]
  rhsContracting := [0]
  lhsNonContracting := [0, 1]
  rhsNonContracting := [1]
  lhsBatch := []
  rhsBatch := []
  wf := dot_S8192x32x512_S512x512_S8192x32x512_2_0_01_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.PoolSpec.lean ====
/-
  One output row of a max-pooling neighbourhood aggregator, as a function of that row's data.

  A node has a feature vector `s : Fin 512 → EReal` of its own and 32 neighbours with feature vectors `nb n`. Every
  neighbour vector goes through one dense layer with a rectifier, `max (nb n · mw + mb) 0`; the 32 hidden vectors are
  pooled by a coordinatewise maximum taken from `-∞`; and the output is `max (s · sw + pooled · nw) 0`. Both programs
  compute exactly this expression for every node, so the zero and `-∞` are kept as the words both of them spell.
-/
import Idealize.ShloMosaic.PureOps.Ideal
import Idealize.ShloMosaic.Lib.ValueIdx

noncomputable section

namespace Cert.PoolSpec

open Idealize.ShloMosaic Idealize.ShloMosaic.ValueIdx
open scoped BigOperators

/-- A 512 × 512 weight matrix on the extended reals. -/
abbrev Mat : Type := (⟨2, ![512, 512]⟩ : Shape).Idx → EReal

/-- The rectifier's threshold: the word of `0.0`. -/
abbrev zeroW : EReal := Ideal.ofBits .f32 0x00000000#32

/-- The value the pooling maximum starts from: the word of `-∞`. -/
abbrev negInfW : EReal := Ideal.ofBits .f32 0xFF800000#32

/-- Hidden unit `h` of neighbour `n`: the dense layer's affine form, rectified. -/
def hidden (nb : Fin 32 → Fin 512 → EReal) (mw : Mat) (mb : Fin 512 → EReal) (n : Fin 32) (h : Fin 512) : EReal :=
  max ((∑ i : Fin 512, nb n i * mw (ix2 i h)) + mb h) zeroW

/-- Hidden unit `h` pooled over the 32 neighbours: their maximum, taken from `-∞`. -/
def pooled (nb : Fin 32 → Fin 512 → EReal) (mw : Mat) (mb : Fin 512 → EReal) (h : Fin 512) : EReal :=
  (Finset.univ : Finset (Fin 32)).fold max negInfW (fun n => hidden nb mw mb n h)

/-- Output unit `o` of the node: its own projection plus the pooled neighbours' projection, rectified. -/
def rowOut (s : Fin 512 → EReal) (nb : Fin 32 → Fin 512 → EReal) (mw : Mat) (mb : Fin 512 → EReal) (nw sw : Mat)
    (o : Fin 512) : EReal :=
  max ((∑ k : Fin 512, s k * sw (ix2 k o)) + (∑ h : Fin 512, pooled nb mw mb h * nw (ix2 h o))) zeroW

/-- Output unit `o` of node `p` from the whole argument arrays: node `p`'s own row, its 32 neighbour rows, the weights. -/
def nodeOut (sv : (⟨2, ![8192, 512]⟩ : Shape).Idx → EReal) (nv : (⟨3, ![8192, 32, 512]⟩ : Shape).Idx → EReal) (mw : Mat)
    (mb : (⟨1, ![512]⟩ : Shape).Idx → EReal) (nw sw : Mat) (p : Fin 8192) (o : Fin 512) : EReal :=
  rowOut (fun k => sv (ix2 p k)) (fun n i => nv (ix3 p n i)) mw (fun h => mb (ix1 h)) nw sw o

/-- The layer's whole output array, index by index. -/
def layer (sv : (⟨2, ![8192, 512]⟩ : Shape).Idx → EReal) (nv : (⟨3, ![8192, 32, 512]⟩ : Shape).Idx → EReal) (mw : Mat)
    (mb : (⟨1, ![512]⟩ : Shape).Idx → EReal) (nw sw : Mat) : (⟨2, ![8192, 512]⟩ : Shape).Idx → EReal :=
  fun j => nodeOut sv nv mw mb nw sw (j 0) (j 1)

theorem layer_ix2 (sv : (⟨2, ![8192, 512]⟩ : Shape).Idx → EReal) (nv : (⟨3, ![8192, 32, 512]⟩ : Shape).Idx → EReal) (mw : Mat)
    (mb : (⟨1, ![512]⟩ : Shape).Idx → EReal) (nw sw : Mat) (p : Fin 8192) (o : Fin 512) :
    layer sv nv mw mb nw sw (ix2 p o) = nodeOut sv nv mw mb nw sw p o := rfl

end Cert.PoolSpec

end
-- ==== Proof.LibMidAxisMax.lean ====
/-
  A maximum taken along the MIDDLE axis of a rank-three array `[a, b, c]`, read at an index given by coordinates, at the
  ideal values: the index a reduction over that axis inserts, `(p, k) ↦ (p, n, k)`; the lane reduction
  `vector.multi_reduction <maximumf>` and the host's `reduce` with a maximum body, each read at `(p, k)` as the fold of
  `max` over `n : Fin b` of the source at `(p, n, k)`, from the accumulator's (resp. the initial scalar's) value. The
  starting value is kept as it is spelt: nothing here evaluates it.
-/
import Idealize.ShloMosaic.Lib.ValueIdx
import Idealize.ShloMosaic.PureOps.Ideal.Laws

noncomputable section

namespace Cert.MidAxisMax

open Idealize.ShloMosaic Idealize.ShloMosaic.ValueIdx

/-- The reduced index `(p, k)` with coordinate `n` put back on the middle axis is `(p, n, k)`. -/
theorem lift_mid {a b c : ℕ} (h : (⟨3, ![a, b, c]⟩ : Shape).Reduces [(1 : Fin 3)] ⟨2, ![a, c]⟩) (p : Fin a) (k : Fin c)
    (n : Fin ((⟨3, ![a, b, c]⟩ : Shape).size (1 : Fin 3))) :
    h.lift (ix2 p k) n = ix3 p (⟨n.val, n.isLt⟩ : Fin b) k := by
  funext d; apply Fin.ext
  fin_cases d <;> rfl

/-- The lane maximum along the middle axis, at `(p, k)`: the fold of `max` over the middle coordinate. -/
theorem laneMax_mid_apply {a b c : ℕ} {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.maximumf.neutral φ hφ) (p : Fin a) (k : Fin c) :
    multiReduction .maximumf [(1 : Fin 3)] ⟨2, ![a, c]⟩ src acc h hφ hacc (ix2 p k)
      = (Finset.univ : Finset (Fin b)).fold max (Ideal.ofBits φ acc) (fun n => src (ix3 p n k)) := by
  refine (Ideal.multiReduction_maximumf_single src acc h hφ hacc (ix2 p k)).trans ?_
  have hf : (src ∘ h.lift (ix2 p k)) = fun n : Fin b => src (ix3 p n k) :=
    funext fun n => congrArg src (lift_mid h p k n)
  exact congrArg (fun f => Finset.fold max (Ideal.ofBits φ acc) f (Finset.univ : Finset (Fin b))) hf

/-- The host's `reduce` with a maximum body along the middle axis, at `(p, k)`: the same fold, from the initial scalar. -/
theorem hostMax_mid_apply {a b c : ℕ} {φ : FTy} (x : FVec Ideal ⟨3, ![a, b, c]⟩ φ) (init : (⟨0, ![]⟩ : Shape).Idx → Ideal φ)
    (h' : (⟨3, ![a, b, c]⟩ : Shape).ReducesTo [(1 : Fin 3)] ⟨2, ![a, c]⟩) (hu : 0 < (⟨0, ![]⟩ : Shape).numel)
    (h : (⟨3, ![a, b, c]⟩ : Shape).Reduces [(1 : Fin 3)] ⟨2, ![a, c]⟩) (p : Fin a) (k : Fin c) :
    Host.reduce FloatOps.maximumf x init h' hu (ix2 p k)
      = (Finset.univ : Finset (Fin b)).fold max (init (Shape.Idx.first hu)) (fun n => x (ix3 p n k)) := by
  refine (Host.reduce_eq_fold_single FloatOps.maximumf x init h' h hu (ix2 p k)).trans ?_
  have hf : (x ∘ h.lift (ix2 p k)) = fun n : Fin b => x (ix3 p n k) :=
    funext fun n => congrArg x (lift_mid h p k n)
  exact congrArg (fun f => Finset.fold max (init (Shape.Idx.first hu)) f (Finset.univ : Finset (Fin b))) hf

end Cert.MidAxisMax

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.KernelRow.lean ====
/-
  The kernel body's stored value read at an index `(r, o)` of its 128 × 512 output block: output unit `o` of the block's
  node `r`, as the specification states it, from row `r` of the block of own features, the 32 rows `(r, n, ·)` of the
  block of neighbour features, the one-row bias block and the three weight blocks.

  The body flattens the neighbour block `[128, 32, 512]` to `[4096, 512]` (row `r·32 + n` is neighbour `n` of node `r`),
  multiplies by the first weight matrix, adds the bias row, rectifies, unflattens to `[128, 32, 512]`, takes the maximum
  along the neighbour axis from `-∞`, and combines two more products. Changes of float format are the identity on the
  extended reals, a cast of a shape to itself is the identity, and a product into the zero accumulator is the plain sum of
  products.
-/
import proofs.«115620_j31507880083682_2_alg».proof.Proof.Gen.KernelIdeal.Skeleton
import proofs.«115620_j31507880083682_2_alg».proof.Proof.PoolSpec
import proofs.«115620_j31507880083682_2_alg».proof.Proof.LibMidAxisMax
import proofs.«115620_j31507880083682_2_alg».proof.Proof.LibDenseRows
import proofs.«115620_j31507880083682_2_alg».proof.Proof.LibRank3Layout
import Idealize.ShloMosaic.Lib.ValueLayout
import Idealize.ShloMosaic.Lib.Pipeline.Value

noncomputable section

namespace Cert.KernelRow

open Cert.KernelIdeal Cert.KernelIdeal.Gen Idealize.ShloMosaic Idealize.ShloMosaic.ValueIdx
open Cert.PoolSpec
open scoped BigOperators

/-! ## The two contractions' dimension numbers -/

theorem big_l0 (j : S4096x512.Idx) (k : dot_S4096x512_S512x512_S4096x512_1_0_0_1_n_n.contr.Idx) :
    (dot_S4096x512_S512x512_S4096x512_1_0_0_1_n_n.lhsIdx j k (0 : Fin 2)).val = (j (0 : Fin 2)).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl

theorem big_r1 (j : S4096x512.Idx) (k : dot_S4096x512_S512x512_S4096x512_1_0_0_1_n_n.contr.Idx) :
    (dot_S4096x512_S512x512_S4096x512_1_0_0_1_n_n.rhsIdx j k (1 : Fin 2)).val = (j (1 : Fin 2)).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

theorem small_l0 (j : S128x512.Idx) (k : dot_S128x512_S512x512_S128x512_1_0_0_1_n_n.contr.Idx) :
    (dot_S128x512_S512x512_S128x512_1_0_0_1_n_n.lhsIdx j k (0 : Fin 2)).val = (j (0 : Fin 2)).val := by
  unfold DotDims.lhsIdx
  rw [dif_neg (show ¬(0 : Fin S128x512.rank) ∈ dot_S128x512_S512x512_S128x512_1_0_0_1_n_n.lhsBatch by decide),
    dif_pos (show (0 : Fin S128x512.rank) ∈ dot_S128x512_S512x512_S128x512_1_0_0_1_n_n.lhsNonContracting by decide)]
  rfl

theorem small_r1 (j : S128x512.Idx) (k : dot_S128x512_S512x512_S128x512_1_0_0_1_n_n.contr.Idx) :
    (dot_S128x512_S512x512_S128x512_1_0_0_1_n_n.rhsIdx j k (1 : Fin 2)).val = (j (1 : Fin 2)).val := by
  unfold DotDims.rhsIdx
  rw [dif_neg (show ¬(1 : Fin S512x512.rank) ∈ dot_S128x512_S512x512_S128x512_1_0_0_1_n_n.rhsBatch by decide),
    dif_pos (show (1 : Fin S512x512.rank) ∈ dot_S128x512_S512x512_S128x512_1_0_0_1_n_n.rhsNonContracting by decide)]
  rfl

/-- The 4096 × 512 by 512 × 512 product into the zero accumulator, at `(q, h)`. -/
theorem bigProduct_apply (A : FVec Ideal S4096x512 .bf16) (W : FVec Ideal S512x512 .bf16) (q : Fin 4096) (h : Fin 512) :
    matmul dot_S4096x512_S512x512_S4096x512_1_0_0_1_n_n none A W (constant (F := Ideal) S4096x512 .f32 0x00000000#32) (ix2 q h)
      = ∑ i : Fin 512, A (ix2 q i) * W (ix2 i h) :=
  Cert.DenseRows.matmul_zero_plain_apply dot_S4096x512_S512x512_S4096x512_1_0_0_1_n_n rfl rfl rfl rfl big_l0 big_r1 A W q h

/-- The 128 × 512 by 512 × 512 product into the zero accumulator, at `(r, o)`. -/
theorem smallProduct_apply (A : FVec Ideal S128x512 .bf16) (W : FVec Ideal S512x512 .bf16) (r : Fin 128) (o : Fin 512) :
    matmul dot_S128x512_S512x512_S128x512_1_0_0_1_n_n none A W (constant (F := Ideal) S128x512 .f32 0x00000000#32) (ix2 r o)
      = ∑ k : Fin 512, A (ix2 r k) * W (ix2 k o) :=
  Cert.DenseRows.matmul_zero_plain_apply dot_S128x512_S512x512_S128x512_1_0_0_1_n_n rfl rfl rfl rfl small_l0 small_r1 A W r o

/-- A 128 × 512 block, its float format changed, times a weight block cast to its own shape, at `(r, o)`. -/
theorem proj_apply (A : FVec Ideal S128x512 .f32) (W : FVec Ideal S512x512 .bf16) (r : Fin 128) (o : Fin 512) :
    matmul dot_S128x512_S512x512_S128x512_1_0_0_1_n_n none (truncf .bf16 A Facts₀.bitsLt_bf16_f32)
        (shapeCast S512x512 W Facts₀.shapeCasts_S512x512_S512x512) (constant (F := Ideal) S128x512 .f32 0x00000000#32) (ix2 r o)
      = ∑ k : Fin 512, A (ix2 r k) * W (ix2 k o) := by
  refine (smallProduct_apply _ _ r o).trans ?_
  rw [shapeCast_self W _]
  rfl

/-! ## The body's stages -/

variable (x0 : FVec Ideal S128x32x512 .f32) (w : FVec Ideal S512x512 .bf16) (b : FVec Ideal S1x512 .f32)
  (nw : FVec Ideal S512x512 .bf16) (x1 : FVec Ideal S128x512 .f32) (sw : FVec Ideal S512x512 .bf16)

/-- The hidden layer of the whole block, its 128 × 32 neighbour rows flattened to 4096 rows. -/
def hid : FVec Ideal S4096x512 .f32 :=
  maximumf
    (addf
      (matmul dot_S4096x512_S512x512_S4096x512_1_0_0_1_n_n none
        (shapeCast S4096x512 (truncf .bf16 x0 Facts₀.bitsLt_bf16_f32) Facts₀.shapeCasts_S128x32x512_S4096x512)
        (shapeCast S512x512 w Facts₀.shapeCasts_S512x512_S512x512) (constant S4096x512 .f32 0x00000000#32))
      (broadcastTo S4096x512 (shapeCast S1x512 b Facts₀.shapeCasts_S1x512_S1x512) Facts₀.broadcasts_S1x512_S4096x512))
    (broadcast S4096x512 (Scalar.ofBits .f32 0x00000000#32))

/-- The hidden layer pooled over each node's 32 neighbours. -/
def pool : FVec Ideal S128x512 .f32 :=
  multiReduction .maximumf [1] S128x512 (shapeCast S128x32x512 (hid x0 w b) Facts₀.shapeCasts_S4096x512_S128x32x512)
    0xFF800000#32 Facts₀.reduces_S128x32x512_S128x512 (.inl rfl) rfl

/-- The stored value is the rectified sum of the two products, over those stages. -/
theorem pay_eq : k0_pay1 (F := Ideal) x0 w b nw x1 sw
    = maximumf
        (addf
          (matmul dot_S128x512_S512x512_S128x512_1_0_0_1_n_n none (truncf .bf16 x1 Facts₀.bitsLt_bf16_f32)
            (shapeCast S512x512 sw Facts₀.shapeCasts_S512x512_S512x512) (constant S128x512 .f32 0x00000000#32))
          (matmul dot_S128x512_S512x512_S128x512_1_0_0_1_n_n none (truncf .bf16 (pool x0 w b) Facts₀.bitsLt_bf16_f32)
            (shapeCast S512x512 nw Facts₀.shapeCasts_S512x512_S512x512) (constant S128x512 .f32 0x00000000#32)))
        (broadcast S128x512 (Scalar.ofBits .f32 0x00000000#32)) := rfl

/-- Row `r·32 + n` of the flattened hidden layer is neighbour `n` of node `r`. -/
theorem hid_apply (r : Fin 128) (n : Fin 32) (h : Fin 512) (q : Fin 4096) (hq : q.val = r.val * 32 + n.val) :
    hid x0 w b (ix2 q h) = hidden (fun n i => x0 (ix3 r n i)) w (fun h => b (ix2 (0 : Fin 1) h)) n h := by
  have e1 : matmul dot_S4096x512_S512x512_S4096x512_1_0_0_1_n_n none
        (shapeCast S4096x512 (truncf .bf16 x0 Facts₀.bitsLt_bf16_f32) Facts₀.shapeCasts_S128x32x512_S4096x512)
        (shapeCast S512x512 w Facts₀.shapeCasts_S512x512_S512x512) (constant (F := Ideal) S4096x512 .f32 0x00000000#32) (ix2 q h)
      = ∑ i : Fin 512, x0 (ix3 r n i) * w (ix2 i h) := by
    refine (bigProduct_apply _ _ q h).trans (Finset.sum_congr rfl fun i _ => ?_)
    have ea : shapeCast S4096x512 (truncf .bf16 x0 Facts₀.bitsLt_bf16_f32) Facts₀.shapeCasts_S128x32x512_S4096x512 (ix2 q i)
        = x0 (ix3 r n i) :=
      Cert.Rank3Layout.shapeCast_abc_flat_apply (truncf .bf16 x0 Facts₀.bitsLt_bf16_f32)
        Facts₀.shapeCasts_S128x32x512_S4096x512 r n i q hq
    have eb : shapeCast S512x512 w Facts₀.shapeCasts_S512x512_S512x512 = w := shapeCast_self w _
    rw [ea, eb]
  have e2 : broadcastTo S4096x512 (shapeCast S1x512 b Facts₀.shapeCasts_S1x512_S1x512) Facts₀.broadcasts_S1x512_S4096x512 (ix2 q h)
      = b (ix2 (0 : Fin 1) h) := by
    refine (broadcastTo_1b_ab_apply _ Facts₀.broadcasts_S1x512_S4096x512 q h).trans ?_
    exact congrFun (shapeCast_self b _) _
  show max (_ + _) _ = _
  rw [e1, e2]
  rfl

/-- Hidden unit `h` of node `r`, pooled over its neighbours. -/
theorem pool_apply (r : Fin 128) (h : Fin 512) :
    pool x0 w b (ix2 r h) = pooled (fun n i => x0 (ix3 r n i)) w (fun h => b (ix2 (0 : Fin 1) h)) h := by
  unfold pool pooled
  refine (Cert.MidAxisMax.laneMax_mid_apply (b := 32)
    (shapeCast S128x32x512 (hid x0 w b) Facts₀.shapeCasts_S4096x512_S128x32x512) 0xFF800000#32
    Facts₀.reduces_S128x32x512_S128x512 (.inl rfl) rfl r h).trans ?_
  refine congrArg (fun f => Finset.fold max negInfW f (Finset.univ : Finset (Fin 32))) (funext fun n => ?_)
  have hq : r.val * 32 + n.val < 4096 := by have := r.isLt; have := n.isLt; omega
  refine (Cert.Rank3Layout.shapeCast_flat_abc_apply (hid x0 w b) Facts₀.shapeCasts_S4096x512_S128x32x512 r n h
    ⟨r.val * 32 + n.val, hq⟩ rfl).trans ?_
  exact hid_apply x0 w b r n h ⟨r.val * 32 + n.val, hq⟩ rfl

/-- The stored value at `(r, o)` is output unit `o` of the block's node `r`. -/
theorem pay_apply (r : Fin 128) (o : Fin 512) :
    k0_pay1 (F := Ideal) x0 w b nw x1 sw (ix2 r o)
      = rowOut (fun k => x1 (ix2 r k)) (fun n i => x0 (ix3 r n i)) w (fun h => b (ix2 (0 : Fin 1) h)) nw sw o := by
  rw [pay_eq]
  have e2 : matmul dot_S128x512_S512x512_S128x512_1_0_0_1_n_n none (truncf .bf16 (pool x0 w b) Facts₀.bitsLt_bf16_f32)
        (shapeCast S512x512 nw Facts₀.shapeCasts_S512x512_S512x512) (constant (F := Ideal) S128x512 .f32 0x00000000#32) (ix2 r o)
      = ∑ h : Fin 512, pooled (fun n i => x0 (ix3 r n i)) w (fun h => b (ix2 (0 : Fin 1) h)) h * nw (ix2 h o) :=
    (proj_apply (pool x0 w b) nw r o).trans
      (Finset.sum_congr rfl fun h _ => congrArg (· * nw (ix2 h o)) (pool_apply x0 w b r h))
  show max (_ + _) _ = _
  rw [proj_apply x1 sw r o, e2]
  rfl

end Cert.KernelRow

end
-- ==== Proof.KernelArray.lean ====
/-
  From blocks to the array. Grid point `t` of the 64 stages rows `128·t … 128·t + 127` of the own-feature array and of the
  neighbour array, the whole of each weight matrix and the whole bias row, and writes back rows `128·t … 128·t + 127` of
  the output. So what point `t` writes back is block `t` of the layer's output array as the specification states it, the
  64 blocks cover the 8192 rows, and the output array after the run is the layer of the argument arrays.

  The weight matrices reach the kernel through a change of float format and the bias through a reshape `[512] → [1, 512]`,
  both done on the host before the launch; on the extended reals the first is the identity and the second reads `(0, h)`
  at `h`.
-/
import proofs.«115620_j31507880083682_2_alg».proof.Proof.Gen.KernelIdeal.Value
import proofs.«115620_j31507880083682_2_alg».proof.Proof.KernelRow

noncomputable section

namespace Cert.KernelArray

open Cert.KernelIdeal Cert.KernelIdeal.Gen Idealize.ShloMosaic Idealize.ShloMosaic.TcCoe Idealize.SL.Sem
open Idealize.ShloMosaic.ValueIdx Cert.PoolSpec
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One block of the output from one block of each input -/

/-- If the staged blocks are rows `128·T + r` of the two feature arrays, the weight matrices themselves and the bias laid
    as one row, the body's stored value at `(r, o)` is the layer at `(128·T + r, o)`. -/
theorem block_apply (x0 : FVec Ideal S128x32x512 .f32) (w : FVec Ideal S512x512 .bf16) (b : FVec Ideal S1x512 .f32)
    (nwb : FVec Ideal S512x512 .bf16) (x1 : FVec Ideal S128x512 .f32) (swb : FVec Ideal S512x512 .bf16)
    (sv : (⟨2, ![8192, 512]⟩ : Shape).Idx → EReal) (nv : (⟨3, ![8192, 32, 512]⟩ : Shape).Idx → EReal) (mw : Mat)
    (mb : (⟨1, ![512]⟩ : Shape).Idx → EReal) (nw sw : Mat) (r : Fin 128) (o : Fin 512) (p : Fin 8192)
    (h0 : ∀ (n : Fin 32) (i : Fin 512), x0 (ix3 r n i) = nv (ix3 p n i))
    (h1 : ∀ k : Fin 512, x1 (ix2 r k) = sv (ix2 p k))
    (hw : w = mw) (hb : ∀ h : Fin 512, b (ix2 (0 : Fin 1) h) = mb (ix1 h)) (hnw : nwb = nw) (hsw : swb = sw) :
    k0_pay1 (F := Ideal) x0 w b nwb x1 swb (ix2 r o) = layer sv nv mw mb nw sw (ix2 p o) := by
  rw [Cert.KernelRow.pay_apply, layer_ix2]
  unfold nodeOut
  subst hw hnw hsw
  simp only [h0, h1, hb]

/-! ## The arrays the region finds -/

/-- The first weight matrix as the region finds it: the argument, its float format changed. -/
theorem V_mlp_w (c : Dev nD) : (V m c main_v0 : S512x512.Idx → EReal) = m ((c : Thread nD τ).loc main_arg2) := by
  have e : @Eq (FVec Ideal S512x512 .bf16) (V m c main_v0)
      (truncf .bf16 (show FVec Ideal S512x512 .f32 from m ((c : Thread nD τ).loc main_arg2)) Facts₀.bitsLt_bf16_f32) := by
    dsimp only [Gen.V, Gen.hostOps0]; after_results <;> rfl
  rw [e]; rfl

/-- The second weight matrix (the pooled neighbours' projection) as the region finds it. -/
theorem V_neigh_w (c : Dev nD) : (V m c main_v1 : S512x512.Idx → EReal) = m ((c : Thread nD τ).loc main_arg4) := by
  have e : @Eq (FVec Ideal S512x512 .bf16) (V m c main_v1)
      (truncf .bf16 (show FVec Ideal S512x512 .f32 from m ((c : Thread nD τ).loc main_arg4)) Facts₀.bitsLt_bf16_f32) := by
    dsimp only [Gen.V, Gen.hostOps0]; after_results <;> rfl
  rw [e]; rfl

/-- The third weight matrix (the node's own projection) as the region finds it. -/
theorem V_self_w (c : Dev nD) : (V m c main_v2 : S512x512.Idx → EReal) = m ((c : Thread nD τ).loc main_arg5) := by
  have e : @Eq (FVec Ideal S512x512 .bf16) (V m c main_v2)
      (truncf .bf16 (show FVec Ideal S512x512 .f32 from m ((c : Thread nD τ).loc main_arg5)) Facts₀.bitsLt_bf16_f32) := by
    dsimp only [Gen.V, Gen.hostOps0]; after_results <;> rfl
  rw [e]; rfl

/-- The bias as the region finds it: the argument vector laid as one row. -/
theorem V_bias (c : Dev nD) : (V m c main_v3 : S1x512.Idx → EReal)
    = shapeCast S1x512 (m ((c : Thread nD τ).loc main_arg3)) Facts₀.shapeCasts_S512_S1x512 := by
  dsimp only [Gen.V, Gen.hostOps0]; after_results <;> rfl

/-! ## The index maps over the grid -/

/-- Decided over the 64 points: the two feature windows and the output window sit at block row `t`, everything else at
    block `0`. -/
theorem idx_facts : ∀ t : Fin cfg0.N,
    win0_6.index t (0 : Fin 2) = t.val ∧ win0_6.index t (1 : Fin 2) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every point is below 64. -/
theorem point_lt (t : Fin cfg0.N) : t.val < 64 := lt_of_lt_of_eq t.isLt N_0

/-! ## The staged blocks, read off the arrays -/

/-- Row `(r, n, ·)` of the neighbour block at point `t` is row `(128·t + r, n, ·)` of the neighbour array. -/
theorem blk_neigh (c : Dev nD) (t : Fin cfg0.N) (r : Fin 128) (n : Fin 32) (i : Fin 512) (p : Fin 8192)
    (hp : p.val = t.val * 128 + r.val) :
    iblk m c 0 t (ix3 r n i) = m ((c : Thread nD τ).loc main_arg1) (ix3 p n i) := by
  obtain ⟨-, -, e0, e1, e2, -⟩ := idx_facts t
  show V m c main_arg1 (((cfg0.win 0).blk t).view.emb (ix3 r n i)) = _
  rw [V_main_arg1]
  refine congrArg _ (funext fun a => Fin.ext ?_)
  match a with
  | ⟨0, _⟩ => show win0_0.index t (0 : Fin 3) * 128 + 1 * r.val = p.val; omega
  | ⟨1, _⟩ => show win0_0.index t (1 : Fin 3) * 32 + 1 * n.val = n.val; omega
  | ⟨2, _⟩ => show win0_0.index t (2 : Fin 3) * 512 + 1 * i.val = i.val; omega

/-- Row `r` of the own-feature block at point `t` is row `128·t + r` of the own-feature array. -/
theorem blk_self (c : Dev nD) (t : Fin cfg0.N) (r : Fin 128) (k : Fin 512) (p : Fin 8192)
    (hp : p.val = t.val * 128 + r.val) :
    iblk m c 1 t (ix2 r k) = m ((c : Thread nD τ).loc main_arg0) (ix2 p k) := by
  obtain ⟨-, -, -, -, -, e0, e1, -⟩ := idx_facts t
  show V m c main_arg0 (((cfg0.win 1).blk t).view.emb (ix2 r k)) = _
  rw [V_main_arg0]
  refine congrArg _ (funext fun a => Fin.ext ?_)
  match a with
  | ⟨0, _⟩ => show win0_1.index t (0 : Fin 2) * 128 + 1 * r.val = p.val; omega
  | ⟨1, _⟩ => show win0_1.index t (1 : Fin 2) * 512 + 1 * k.val = k.val; omega

/-- The first weight block is the whole first weight matrix. -/
theorem blk_mlp_w (c : Dev nD) (t : Fin cfg0.N) :
    (iblk m c 2 t : S512x512.Idx → EReal) = m ((c : Thread nD τ).loc main_arg2) := by
  obtain ⟨-, -, -, -, -, -, -, e0, e1, -⟩ := idx_facts t
  funext y
  show (V m c main_v0 : S512x512.Idx → EReal) (((cfg0.win 2).blk t).view.emb y) = _
  rw [V_mlp_w]
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The second weight block is the whole second weight matrix. -/
theorem blk_neigh_w (c : Dev nD) (t : Fin cfg0.N) :
    (iblk m c 4 t : S512x512.Idx → EReal) = m ((c : Thread nD τ).loc main_arg4) := by
  obtain ⟨-, -, -, -, -, -, -, -, -, -, -, e0, e1, -⟩ := idx_facts t
  funext y
  show (V m c main_v1 : S512x512.Idx → EReal) (((cfg0.win 4).blk t).view.emb y) = _
  rw [V_neigh_w]
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- The third weight block is the whole third weight matrix. -/
theorem blk_self_w (c : Dev nD) (t : Fin cfg0.N) :
    (iblk m c 5 t : S512x512.Idx → EReal) = m ((c : Thread nD τ).loc main_arg5) := by
  obtain ⟨-, -, -, -, -, -, -, -, -, -, -, -, -, e0, e1⟩ := idx_facts t
  funext y
  show (V m c main_v2 : S512x512.Idx → EReal) (((cfg0.win 5).blk t).view.emb y) = _
  rw [V_self_w]
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- The bias block at `(0, h)` is the bias vector at `h`. -/
theorem blk_bias (c : Dev nD) (t : Fin cfg0.N) (h : Fin 512) :
    iblk m c 3 t (ix2 (0 : Fin 1) h) = m ((c : Thread nD τ).loc main_arg3) (ix1 h) := by
  obtain ⟨-, -, -, -, -, -, -, -, -, e0, e1, -⟩ := idx_facts t
  show (V m c main_v3 : S1x512.Idx → EReal) (((cfg0.win 3).blk t).view.emb (ix2 (0 : Fin 1) h)) = _
  rw [V_bias]
  have ee : ((cfg0.win 3).blk t).view.emb (ix2 (0 : Fin 1) h) = ix2 (0 : Fin 1) h := funext fun a => Fin.ext (by
    match a with
    | ⟨0, _⟩ => show win0_3.index t (0 : Fin 2) * 1 + 1 * 0 = 0; omega
    | ⟨1, _⟩ => show win0_3.index t (1 : Fin 2) * 512 + 1 * h.val = h.val; omega)
  rw [ee]
  exact shapeCast_a_1a_apply _ _ 0 h

/-! ## What a point writes back, the cover, the array -/

/-- What point `t` writes back is block `t` of the layer of the argument arrays. -/
theorem flushed_eq (c : Dev nD) (t : Fin cfg0.N) :
    (dats m 0 c).flushed 6 t = ((cfg0.win 6).blk t).view.read (Elt Ideal)
      (layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed6]
  unfold out0_6
  rw [View.canon_unit_zero hz2]
  simp only [View.ld_unit_zero (S := S128x32x512) hz3, View.ld_unit_zero (S := S512x512) hz2,
    View.ld_unit_zero (S := S1x512) hz2, View.ld_unit_zero (S := S128x512) hz2]
  obtain ⟨e0, e1, -⟩ := idx_facts t
  have ht := point_lt t
  funext j
  obtain ⟨r, o, rfl⟩ : ∃ (r : Fin 128) (o : Fin 512), j = ix2 r o := ⟨j 0, j 1, eq_ix2 j⟩
  have hp : t.val * 128 + r.val < 8192 := by have := r.isLt; omega
  have ee : ((cfg0.win 6).blk t).view.emb (ix2 r o) = ix2 (⟨t.val * 128 + r.val, hp⟩ : Fin 8192) o :=
    funext fun a => Fin.ext (by
      match a with
      | ⟨0, _⟩ => show win0_6.index t (0 : Fin 2) * 128 + 1 * r.val = t.val * 128 + r.val; omega
      | ⟨1, _⟩ => show win0_6.index t (1 : Fin 2) * 512 + 1 * o.val = o.val; omega)
  show k0_pay1 (F := Ideal) (iblk m c 0 t) (iblk m c 2 t) (iblk m c 3 t) (iblk m c 4 t) (iblk m c 1 t) (iblk m c 5 t) (ix2 r o)
    = layer _ _ _ _ _ _ (((cfg0.win 6).blk t).view.emb (ix2 r o))
  rw [ee]
  exact block_apply (iblk m c 0 t) (iblk m c 2 t) (iblk m c 3 t) (iblk m c 4 t) (iblk m c 1 t) (iblk m c 5 t) _ _ _ _ _ _ r o
    ⟨t.val * 128 + r.val, hp⟩ (fun n i => blk_neigh m c t r n i _ rfl) (fun k => blk_self m c t r k _ rfl)
    (blk_mlp_w m c t) (fun h => blk_bias m c t h) (blk_neigh_w m c t) (blk_self_w m c t)

/-- An index of the output array is in point `t`'s block iff each coordinate is in the block's range on its axis. -/
theorem mem_blk (t : Fin cfg0.N) (i : S8192x512.Idx) :
    i ∈ ((cfg0.win 6).blk t).view.set ↔ ∀ a : Fin 2, win0_6.index t a * S128x512.size a ≤ (i a).val
      ∧ (i a).val < win0_6.index t a * S128x512.size a + S128x512.size a := by
  show i ∈ ((View.whole main_v4).slice (win0_6.rect t)).set ↔ _
  rw [View.set_slice_whole, Rect.mem_set_unit]
  exact Iff.rfl

/-- Row `ρ` of the output is in the block of point `ρ / 128`: the 64 blocks cover the array. -/
theorem cover (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  have ht : (i 0).val / 128 < cfg0.N := by rw [show cfg0.N = 64 from N_0]; omega
  refine ⟨⟨(i 0).val / 128, ht⟩, flush0_6 _, ?_⟩
  obtain ⟨e0, e1, -⟩ := idx_facts ⟨(i 0).val / 128, ht⟩
  have e0' : win0_6.index ⟨(i 0).val / 128, ht⟩ (0 : Fin 2) = (i 0).val / 128 := e0
  rw [mem_blk]
  intro a
  match a with
  | ⟨0, _⟩ =>
    show win0_6.index ⟨(i 0).val / 128, ht⟩ (0 : Fin 2) * 128 ≤ (i 0).val
      ∧ (i 0).val < win0_6.index ⟨(i 0).val / 128, ht⟩ (0 : Fin 2) * 128 + 128
    omega
  | ⟨1, _⟩ =>
    show win0_6.index ⟨(i 0).val / 128, ht⟩ (1 : Fin 2) * 512 ≤ (i 1).val
      ∧ (i 1).val < win0_6.index ⟨(i 0).val / 128, ht⟩ (1 : Fin 2) * 512 + 512
    omega

/-- The output array after the run is the layer of the argument arrays. -/
theorem final (c : Dev nD) : (dats m 0 c).arrAt 6 cfg0.N
    = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover

/-- The kernel's run: every weakly fair execution ends with the result array holding the layer of the argument arrays,
    the arguments unchanged. -/
theorem run : θ_run defs (onTc (τ := τ) (main (F := Ideal))) ⟨m, fun _ => 0, ρ⟩ fun r => ∀ c : Dev nD,
      r.2.mem ((c : Thread nD τ).loc main_v4)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelArray

end
-- ==== Proof.RefRow.lean ====
/-
  The reference program read at an output index `(p, o)`: its last stage is output unit `o` of node `p` as the
  specification states it. Read from the outside in: the final rectifier; the sum of the node's own projection and the
  pooled neighbours' projection (two contractions over 512 terms); the pooled hidden unit as the maximum over the 32
  neighbours, taken from `-∞`; and each neighbour's hidden unit as the rectified affine form of its feature vector.
-/
import proofs.«115620_j31507880083682_2_alg».proof.Proof.Gen.ReferenceIdeal.Read
import proofs.«115620_j31507880083682_2_alg».proof.Proof.PoolSpec
import proofs.«115620_j31507880083682_2_alg».proof.Proof.LibMidAxisMax

noncomputable section

namespace Cert.RefRow

open Cert.ReferenceIdeal Cert.ReferenceIdeal.Gen Cert.ReferenceIdeal.Read Idealize.ShloMosaic Idealize.ShloMosaic.ValueIdx
open Cert.PoolSpec
open scoped BigOperators

variable (x0 : (⟨S8192x512, .f32⟩ : BufTy).Contents (Elt Ideal)) (x1 : (⟨S8192x32x512, .f32⟩ : BufTy).Contents (Elt Ideal))
  (x2 : (⟨S512x512, .f32⟩ : BufTy).Contents (Elt Ideal)) (x3 : (⟨S512, .f32⟩ : BufTy).Contents (Elt Ideal))
  (x4 x5 : (⟨S512x512, .f32⟩ : BufTy).Contents (Elt Ideal))

/-- Neighbour `n` of node `p`, hidden unit `h`: the contraction of the neighbour's features with column `h` of the
    first weight matrix, plus the bias at `h`, rectified. -/
theorem hidden_apply (p : Fin 8192) (n : Fin 32) (h : Fin 512) :
    val_main_v4 (F := Ideal) x1 x2 x3 (ix3 p n h) = hidden (fun n i => x1 (ix3 p n i)) x2 (fun h => x3 (ix1 h)) n h := by
  have el : ∀ k : Fin 512, lidx_main_v0 (ix3 p n h) k = ix3 p n k := fun k => funext fun a => Fin.ext (by
    match a with
    | ⟨0, _⟩ => rfl
    | ⟨1, _⟩ => rfl
    | ⟨2, _⟩ => rfl)
  have er : ∀ k : Fin 512, ridx_main_v0 (ix3 p n h) k = ix2 k h := fun k => funext fun a => Fin.ext (by
    match a with
    | ⟨0, _⟩ => rfl
    | ⟨1, _⟩ => rfl)
  have eb : idx_main_v1 (idx_main_v2 (ix3 p n h)) = ix1 h := funext fun a => Fin.ext (by
    match a with
    | ⟨0, _⟩ => rfl)
  rw [val_main_v4_apply, val_main_v3_apply, val_main_v0_apply, val_main_v2_apply, val_main_v1_apply,
    val_main_call0_v0_apply, val_main_call0_cst_apply]
  simp only [el, er, eb]
  rfl

/-- Node `p`, hidden unit `h`, pooled: the maximum over the 32 neighbours from `-∞`. -/
theorem pooled_apply (p : Fin 8192) (h : Fin 512) :
    val_main_v5 (F := Ideal) x1 x2 x3 (ix2 p h) = pooled (fun n i => x1 (ix3 p n i)) x2 (fun h => x3 (ix1 h)) h := by
  unfold val_main_v5 pooled
  refine (Cert.MidAxisMax.hostMax_mid_apply (b := 32) (val_main_v4 (F := Ideal) x1 x2 x3) (val_main_cst (F := Ideal))
    Facts₀.reducesTo_S8192x32x512_S8192x512_d1 Facts₀.h_S_ (by decide) p h).trans ?_
  exact congrArg (fun f => Finset.fold max negInfW f (Finset.univ : Finset (Fin 32)))
    (funext fun n => hidden_apply x1 x2 x3 p n h)

/-- The reference's result at `(p, o)` is the specification's output unit `o` of node `p`. -/
theorem result_apply (p : Fin 8192) (o : Fin 512) :
    val_main_v9 (F := Ideal) x0 x1 x2 x3 x4 x5 (ix2 p o) = nodeOut x0 x1 x2 x3 x4 x5 p o := by
  have l7 : ∀ k : Fin 512, lidx_main_v7 (ix2 p o) k = ix2 p k := fun k => funext fun a => Fin.ext (by
    match a with
    | ⟨0, _⟩ => rfl
    | ⟨1, _⟩ => rfl)
  have r7 : ∀ k : Fin 512, ridx_main_v7 (ix2 p o) k = ix2 k o := fun k => funext fun a => Fin.ext (by
    match a with
    | ⟨0, _⟩ => rfl
    | ⟨1, _⟩ => rfl)
  have l6 : ∀ k : Fin 512, lidx_main_v6 (ix2 p o) k = ix2 p k := fun k => funext fun a => Fin.ext (by
    match a with
    | ⟨0, _⟩ => rfl
    | ⟨1, _⟩ => rfl)
  have r6 : ∀ k : Fin 512, ridx_main_v6 (ix2 p o) k = ix2 k o := fun k => funext fun a => Fin.ext (by
    match a with
    | ⟨0, _⟩ => rfl
    | ⟨1, _⟩ => rfl)
  rw [val_main_v9_apply, val_main_v8_apply, val_main_v7_apply, val_main_v6_apply, val_main_call1_v0_apply,
    val_main_call1_cst_apply]
  simp only [l7, r7, l6, r6, pooled_apply]
  rfl

/-- The reference's result array is the layer, as one function of the arguments. -/
theorem result_eq : val_main_v9 (F := Ideal) x0 x1 x2 x3 x4 x5 = layer x0 x1 x2 x3 x4 x5 := by
  funext j
  obtain ⟨p, o, rfl⟩ : ∃ (p : Fin 8192) (o : Fin 512), j = ix2 p o := ⟨j 0, j 1, eq_ix2 j⟩
  exact result_apply x0 x1 x2 x3 x4 x5 p o

end Cert.RefRow

end
-- ==== Proof.lean ====
/-
  A max-pooling neighbourhood aggregator against its plain statement, on the extended reals.

  Each of 8192 nodes has a feature vector of its own and 32 neighbour vectors, all of length 512. Every neighbour vector
  goes through a dense layer with a rectifier; the 32 hidden vectors are pooled by a coordinatewise maximum; the output is
  the rectified sum of the node's own projection and the pooled vector's projection:
  `out[p, o] = max (∑ₖ self[p, k]·Ws[k, o] + ∑ₕ (maxₙ max (∑ᵢ neigh[p, n, i]·W[i, h] + b[h]) 0)·Wn[h, o]) 0`.

  The kernel computes this 128 nodes at a time: it flattens the 128 × 32 neighbour rows of a block into 4096 rows for one
  product, unflattens, takes the maximum along the neighbour axis, and rounds its matrix operands to a shorter float
  format on the way in; the reference does the same arithmetic on whole arrays. On the extended reals the change of format
  is the identity and a product into a zero accumulator is the plain sum of products, so both sides are the SAME
  expression, term for term and in the same order of operations: no algebraic law beyond reading each side at an index is
  needed, and the inputs' finiteness is not used.

  `PoolSpec` states the expression row by row; `RefRow` reads the reference's stages at an index and finds it;
  `KernelRow` reads the kernel body's stored value at an index of a block and finds it for the block's rows;
  `KernelArray` carries the blocks to the whole output array (point `t` of the grid owns rows `128·t … 128·t + 127`).
-/
import proofs.«115620_j31507880083682_2_alg».proof.Defs
import proofs.«115620_j31507880083682_2_alg».proof.Proof.Gen.Kernel
import proofs.«115620_j31507880083682_2_alg».proof.Proof.Gen.Kernel.Skeleton
import proofs.«115620_j31507880083682_2_alg».proof.Proof.Gen.Kernel.Launch
import proofs.«115620_j31507880083682_2_alg».proof.Proof.Gen.Kernel.Points
import proofs.«115620_j31507880083682_2_alg».proof.Proof.Gen.Kernel.Frame
import proofs.«115620_j31507880083682_2_alg».proof.Proof.Gen.KernelIdeal
import proofs.«115620_j31507880083682_2_alg».proof.Proof.Gen.KernelIdeal.Skeleton
import proofs.«115620_j31507880083682_2_alg».proof.Proof.Gen.KernelIdeal.Launch
import proofs.«115620_j31507880083682_2_alg».proof.Proof.Gen.KernelIdeal.Points
import proofs.«115620_j31507880083682_2_alg».proof.Proof.Gen.KernelIdeal.Frame
import proofs.«115620_j31507880083682_2_alg».proof.Proof.Gen.ReferenceIdeal
import proofs.«115620_j31507880083682_2_alg».proof.Proof.Gen.Pre_finite_inputs
import proofs.«115620_j31507880083682_2_alg».proof.Proof.Gen.KernelIdeal.Value
import proofs.«115620_j31507880083682_2_alg».proof.Proof.Gen.ReferenceIdeal.Run
import proofs.«115620_j31507880083682_2_alg».proof.Proof.Gen.ReferenceIdeal.Read
import proofs.«115620_j31507880083682_2_alg».proof.Proof.KernelArray
import proofs.«115620_j31507880083682_2_alg».proof.Proof.RefRow
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the six arguments, the kernel's result array and the reference's both end holding the
    layer of those arguments: the kernel's by its blocks, the reference's stage by stage. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v9_eq, Cert.RefRow.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
